-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x64 : Shape := ⟨3, ![4, 2048, 64]⟩
abbrev S1024x64 : Shape := ⟨2, ![1024, 64]⟩
abbrev S1024 : Shape := ⟨1, ![1024]⟩
abbrev S7x1024x1024 : Shape := ⟨3, ![7, 1024, 1024]⟩
abbrev S7x1024 : Shape := ⟨2, ![7, 1024]⟩
abbrev S_ : Shape := ⟨0, ![]⟩

class Facts : Prop where
  bcast_S_S4x2048x64 : S_.BroadcastsInDim S4x2048x64 (![] : Fin 0 → Fin S4x2048x64.rank)
  reducesTo_S4x2048x64_S_d0_1_2 : S4x2048x64.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S1024 : S_.BroadcastsInDim S1024 (![] : Fin 0 → Fin S1024.rank)
  reducesTo_S1024_S_d0 : S1024.ReducesTo [0] S_
  bcast_S_S7x1024x1024 : S_.BroadcastsInDim S7x1024x1024 (![] : Fin 0 → Fin S7x1024x1024.rank)
  reducesTo_S7x1024x1024_S_d0_1_2 : S7x1024x1024.ReducesTo [0, 1, 2] S_
  bcast_S_S7x1024 : S_.BroadcastsInDim S7x1024 (![] : Fin 0 → Fin S7x1024.rank)
  reducesTo_S7x1024_S_d0_1 : S7x1024.ReducesTo [0, 1] S_

variable [Facts]

def fn_part1 {F : FTy → Type} [FloatOps F] (main_arg4 : FVec F S7x1024 .f32) (main_v13 : IVec S_ 1) (main_v16 : IVec S7x1024x1024 1) : IVec S_ 1 :=
  let main_c_5 : IVec S_ 1 := constantI S_ 1 1#1
  let main_v17 : IVec S_ 1 := (fun x v => Host.reduce IntOp.andi x v reducesTo_S7x1024x1024_S_d0_1_2 h_S_) main_v16 main_c_5
  let main_v18 : IVec S_ 1 := andi main_v13 main_v17
  let main_v19 : FVec F S7x1024 .f32 := Host.absf main_arg4
  let main_cst_6 : FVec F S_ .f32 := constant S_ .f32 0x7F800000#32
  let main_v20 : FVec F S7x1024 .f32 := broadcastInDim S7x1024 ![] bcast_S_S7x1024 main_cst_6
  let main_v21 : IVec S7x1024 1 := cmpf .olt main_v19 main_v20
  let main_c_7 : IVec S_ 1 := constantI S_ 1 1#1
  let main_v22 : IVec S_ 1 := (fun x v => Host.reduce IntOp.andi x v reducesTo_S7x1024_S_d0_1 h_S_) main_v21 main_c_7
  let main_v23 : IVec S_ 1 := andi main_v18 main_v22
  main_v23

def fn {F : FTy → Type} [FloatOps F] (main_arg0 : FVec F S4x2048x64 .f32) (main_arg1 : FVec F S1024x64 .f32) (main_arg2 : FVec F S1024 .f32) (main_arg3 : FVec F S7x1024x1024 .f32) (main_arg4 : FVec F S7x1024 .f32) : IVec S_ 1 :=
  let main_v0 : FVec F S4x2048x64 .f32 := Host.absf main_arg0
  let main_cst : FVec F S_ .f32 := constant S_ .f32 0x7F800000#32
  let main_v1 : FVec F S4x2048x64 .f32 := broadcastInDim S4x2048x64 ![] bcast_S_S4x2048x64 main_cst
  let main_v2 : IVec S4x2048x64 1 := cmpf .olt main_v0 main_v1
  let main_c : IVec S_ 1 := constantI S_ 1 1#1
  let main_v3 : IVec S_ 1 := (fun x v => Host.reduce IntOp.andi x v reducesTo_S4x2048x64_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S7x1024x1024 .f32 := Host.absf main_arg3
  let main_cst_4 : FVec F S_ .f32 := constant S_ .f32 0x7F800000#32
  let main_v15 : FVec F S7x1024x1024 .f32 := broadcastInDim S7x1024x1024 ![] bcast_S_S7x1024x1024 main_cst_4
  let main_v16 : IVec S7x1024x1024 1 := cmpf .olt main_v14 main_v15
  fn_part1 (F := F) main_arg4 main_v13 main_v16
-- ==== Kernel.lean ====
abbrev S4x2048x64 : Shape := ⟨3, ![4, 2048, 64]⟩
abbrev S1024x64 : Shape := ⟨2, ![1024, 64]⟩
abbrev S1024 : Shape := ⟨1, ![1024]⟩
abbrev S7x1024x1024 : Shape := ⟨3, ![7, 1024, 1024]⟩
abbrev S7x1024 : Shape := ⟨2, ![7, 1024]⟩
abbrev S8192x64 : Shape := ⟨2, ![8192, 64]⟩
abbrev S64x1024 : Shape := ⟨2, ![64, 1024]⟩
abbrev S8192x1024 : Shape := ⟨2, ![8192, 1024]⟩
abbrev S512x64 : Shape := ⟨2, ![512, 64]⟩
abbrev S512x1024 : Shape := ⟨2, ![512, 1024]⟩
abbrev S1x1024 : Shape := ⟨2, ![1, 1024]⟩
abbrev S1x1024x1024 : Shape := ⟨3, ![1, 1024, 1024]⟩
abbrev S1024x1024 : Shape := ⟨2, ![1024, 1024]⟩
abbrev S4x2048x1024 : Shape := ⟨3, ![4, 2048, 1024]⟩

abbrev nBuf : Space → Nat
  | .hbm => 13
  | .vmem => 8
  | .smem => 0
  | _ => 0

abbrev bufTy : (tb : Table) → Fin (tcTables nBuf tb) → BufTy
  | .hbm, ⟨0, _⟩ => ⟨S4x2048x64, .f32⟩
  | .hbm, ⟨1, _⟩ => ⟨S1024x64, .f32⟩
  | .hbm, ⟨2, _⟩ => ⟨S1024, .f32⟩
  | .hbm, ⟨3, _⟩ => ⟨S7x1024x1024, .f32⟩
  | .hbm, ⟨4, _⟩ => ⟨S7x1024, .f32⟩
  | .hbm, ⟨5, _⟩ => ⟨S8192x64, .f32⟩
  | .hbm, ⟨6, _⟩ => ⟨S8192x64, .bf16⟩
  | .hbm, ⟨7, _⟩ => ⟨S64x1024, .f32⟩
  | .hbm, ⟨8, _⟩ => ⟨S64x1024, .bf16⟩
  | .hbm, ⟨9, _⟩ => ⟨S7x1024x1024, .f32⟩
  | .hbm, ⟨10, _⟩ => ⟨S7x1024x1024, .bf16⟩
  | .hbm, ⟨11, _⟩ => ⟨S8192x1024, .f32⟩
  | .hbm, ⟨12, _⟩ => ⟨S4x2048x1024, .f32⟩
  | .local _ .vmem, ⟨0, _⟩ => ⟨S512x64, .bf16⟩
  | .local _ .vmem, ⟨1, _⟩ => ⟨S512x64, .bf16⟩
  | .local _ .vmem, ⟨2, _⟩ => ⟨S64x1024, .bf16⟩
  | .local _ .vmem, ⟨3, _⟩ => ⟨S1024, .f32⟩
  | .local _ .vmem, ⟨4, _⟩ => ⟨S7x1024x1024, .bf16⟩
  | .local _ .vmem, ⟨5, _⟩ => ⟨S7x1024, .f32⟩
  | .local _ .vmem, ⟨6, _⟩ => ⟨S512x1024, .f32⟩
  | .local _ .vmem, ⟨7, _⟩ => ⟨S512x1024, .f32⟩
  | _, _ => ⟨S4x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S7x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S7x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x2048x64_S8192x64 : S4x2048x64.ShapeCasts S8192x64
  bitsLt_bf16_f32 : FTy.bits .bf16 < FTy.bits .f32
  transposes_S1024x64_S64x1024_1_0 : S1024x64.Transposes [1, 0] S64x1024
  transposes_S7x1024x1024_S7x1024x1024_0_2_1 : S7x1024x1024.Transposes [0, 2, 1] S7x1024x1024
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S7x1024x1024_S1x1024x1024_0_0_0 : ∀ a, (![0, 0, 0] : Fin 3 → Nat) a + S1x1024x1024.size a ≤ S7x1024x1024.size a
  h_S1x1024x1024 : 0 < S1x1024x1024.numel
  shapeCasts_S1x1024x1024_S1024x1024 : S1x1024x1024.ShapeCasts S1024x1024
  inb_S7x1024_S1x1024_0_0 : ∀ a, (![0, 0] : Fin 2 → Nat) a + S1x1024.size a ≤ S7x1024.size a
  h_S1x1024 : 0 < S1x1024.numel
  shapeCasts_S1x1024_S1024 : S1x1024.ShapeCasts S1024
  inb_S7x1024x1024_S1x1024x1024_1_0_0 : ∀ a, (![1, 0, 0] : Fin 3 → Nat) a + S1x1024x1024.size a ≤ S7x1024x1024.size a
  inb_S7x1024_S1x1024_1_0 : ∀ a, (![1, 0] : Fin 2 → Nat) a + S1x1024.size a ≤ S7x1024.size a
  inb_S7x1024x1024_S1x1024x1024_2_0_0 : ∀ a, (![2, 0, 0] : Fin 3 → Nat) a + S1x1024x1024.size a ≤ S7x1024x1024.size a
  inb_S7x1024_S1x1024_2_0 : ∀ a, (![2, 0] : Fin 2 → Nat) a + S1x1024.size a ≤ S7x1024.size a
  inb_S7x1024x1024_S1x1024x1024_3_0_0 : ∀ a, (![3, 0, 0] : Fin 3 → Nat) a + S1x1024x1024.size a ≤ S7x1024x1024.size a
  inb_S7x1024_S1x1024_3_0 : ∀ a, (![3, 0] : Fin 2 → Nat) a + S1x1024.size a ≤ S7x1024.size a
  inb_S7x1024x1024_S1x1024x1024_4_0_0 : ∀ a, (![4, 0, 0] : Fin 3 → Nat) a + S1x1024x1024.size a ≤ S7x1024x1024.size a
  inb_S7x1024_S1x1024_4_0 : ∀ a, (![4, 0] : Fin 2 → Nat) a + S1x1024.size a ≤ S7x1024.size a
  inb_S7x1024x1024_S1x1024x1024_5_0_0 : ∀ a, (![5, 0, 0] : Fin 3 → Nat) a + S1x1024x1024.size a ≤ S7x1024x1024.size a
  inb_S7x1024_S1x1024_5_0 : ∀ a, (![5, 0] : Fin 2 → Nat) a + S1x1024.size a ≤ S7x1024.size a
  inb_S7x1024x1024_S1x1024x1024_6_0_0 : ∀ a, (![6, 0, 0] : Fin 3 → Nat) a + S1x1024x1024.size a ≤ S7x1024x1024.size a
  inb_S7x1024_S1x1024_6_0 : ∀ a, (![6, 0] : Fin 2 → Nat) a + S1x1024.size a ≤ S7x1024.size a
  inb_S512x1024_S512x1024_0_0 : ∀ a, (![0, 0] : Fin 2 → Nat) a + S512x1024.size a ≤ S512x1024.size a
  h_S512x1024 : 0 < S512x1024.numel
  shapeCasts_S8192x1024_S4x2048x1024 : S8192x1024.ShapeCasts S4x2048x1024
  dot_S512x64_S64x1024_S512x1024_1_0_0_1_n_n_wf : DotDims.WF S512x64 S64x1024 S512x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S8192x64.size a
  hwx0_0 : ∀ i : grid0.Coords, EltTy.bits .bf16 = 32 ∨ (Rect.block (s := S8192x64) S512x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .bf16 = 32 ∨ (Rect.block (s := S64x1024) S64x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S7x1024x1024.size a ≤ S7x1024x1024.size a
  hwx0_3 : ∀ i : grid0.Coords, EltTy.bits .bf16 = 32 ∨ (Rect.block (s := S7x1024x1024) S7x1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S7x1024.size a ≤ S7x1024.size a
  hwx0_4 : ∀ i : grid0.Coords, EltTy.bits .f32 = 32 ∨ (Rect.block (s := S7x1024) S7x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .f32 = 32 ∨ (Rect.block (s := S8192x1024) S512x1024.size (cc0_transform_5 i) (hinb0_5 i)).WholeWords (EltTy.packing .f32)

variable [Facts₀]

def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v1) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S7x1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S7x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x64 : Shape := ⟨3, ![4, 2048, 64]⟩
abbrev S1024x64 : Shape := ⟨2, ![1024, 64]⟩
abbrev S1024 : Shape := ⟨1, ![1024]⟩
abbrev S7x1024x1024 : Shape := ⟨3, ![7, 1024, 1024]⟩
abbrev S7x1024 : Shape := ⟨2, ![7, 1024]⟩
abbrev S4x2048x1024 : Shape := ⟨3, ![4, 2048, 1024]⟩
abbrev S1x1x1024 : Shape := ⟨3, ![1, 1, 1024]⟩
abbrev S_ : Shape := ⟨0, ![]⟩
abbrev S1x1024x1024 : Shape := ⟨3, ![1, 1024, 1024]⟩
abbrev S1024x1024 : Shape := ⟨2, ![1024, 1024]⟩
abbrev S1x1024 : Shape := ⟨2, ![1, 1024]⟩

abbrev nBuf : Space → Nat
  | .hbm => 86
  | .vmem => 0
  | .smem => 0
  | _ => 0

abbrev bufTy : (tb : Table) → Fin (tcTables nBuf tb) → BufTy
  | .hbm, ⟨0, _⟩ => ⟨S4x2048x64, .f32⟩
  | .hbm, ⟨1, _⟩ => ⟨S1024x64, .f32⟩
  | .hbm, ⟨2, _⟩ => ⟨S1024, .f32⟩
  | .hbm, ⟨3, _⟩ => ⟨S7x1024x1024, .f32⟩
  | .hbm, ⟨4, _⟩ => ⟨S7x1024, .f32⟩
  | .hbm, ⟨5, _⟩ => ⟨S4x2048x1024, .f32⟩
  | .hbm, ⟨6, _⟩ => ⟨S1x1x1024, .f32⟩
  | .hbm, ⟨7, _⟩ => ⟨S4x2048x1024, .f32⟩
  | .hbm, ⟨8, _⟩ => ⟨S4x2048x1024, .f32⟩
  | .hbm, ⟨9, _⟩ => ⟨S_, .f32⟩
  | .hbm, ⟨10, _⟩ => ⟨S4x2048x1024, .f32⟩
  | .hbm, ⟨11, _⟩ => ⟨S4x2048x1024, .f32⟩
  | .hbm, ⟨12, _⟩ => ⟨S1x1024x1024, .f32⟩
  | .hbm, ⟨13, _⟩ => ⟨S1024x1024, .f32⟩
  | .hbm, ⟨14, _⟩ => ⟨S4x2048x1024, .f32⟩
  | .hbm, ⟨15, _⟩ => ⟨S1x1024, .f32⟩
  | .hbm, ⟨16, _⟩ => ⟨S1024, .f32⟩
  | .hbm, ⟨17, _⟩ => ⟨S1x1x1024, .f32⟩
  | .hbm, ⟨18, _⟩ => ⟨S4x2048x1024, .f32⟩
  | .hbm, ⟨19, _⟩ => ⟨S4x2048x1024, .f32⟩
  | .hbm, ⟨20, _⟩ => ⟨S_, .f32⟩
  | .hbm, ⟨21, _⟩ => ⟨S4x2048x1024, .f32⟩
  | .hbm, ⟨22, _⟩ => ⟨S4x2048x1024, .f32⟩
  | .hbm, ⟨23, _⟩ => ⟨S1x1024x1024, .f32⟩
  | .hbm, ⟨24, _⟩ => ⟨S1024x1024, .f32⟩
  | .hbm, ⟨25, _⟩ => ⟨S4x2048x1024, .f32⟩
  | .hbm, ⟨26, _⟩ => ⟨S1x1024, .f32⟩
  | .hbm, ⟨27, _⟩ => ⟨S1024, .f32⟩
  | .hbm, ⟨28, _⟩ => ⟨S1x1x1024, .f32⟩
  | .hbm, ⟨29, _⟩ => ⟨S4x2048x1024, .f32⟩
  | .hbm, ⟨30, _⟩ => ⟨S4x2048x1024, .f32⟩
  | .hbm, ⟨31, _⟩ => ⟨S_, .f32⟩
  | .hbm, ⟨32, _⟩ => ⟨S4x2048x1024, .f32⟩
  | .hbm, ⟨33, _⟩ => ⟨S4x2048x1024, .f32⟩
  | .hbm, ⟨34, _⟩ => ⟨S1x1024x1024, .f32⟩
  | .hbm, ⟨35, _⟩ => ⟨S1024x1024, .f32⟩
  | .hbm, ⟨36, _⟩ => ⟨S4x2048x1024, .f32⟩
  | .hbm, ⟨37, _⟩ => ⟨S1x1024, .f32⟩
  | .hbm, ⟨38, _⟩ => ⟨S1024, .f32⟩
  | .hbm, ⟨39, _⟩ => ⟨S1x1x1024, .f32⟩
  | .hbm, ⟨40, _⟩ => ⟨S4x2048x1024, .f32⟩
  | .hbm, ⟨41, _⟩ => ⟨S4x2048x1024, .f32⟩
  | .hbm, ⟨42, _⟩ => ⟨S_, .f32⟩
  | .hbm, ⟨43, _⟩ => ⟨S4x2048x1024, .f32⟩
  | .hbm, ⟨44, _⟩ => ⟨S4x2048x1024, .f32⟩
  | .hbm, ⟨45, _⟩ => ⟨S1x1024x1024, .f32⟩
  | .hbm, ⟨46, _⟩ => ⟨S1024x1024, .f32⟩
  | .hbm, ⟨47, _⟩ => ⟨S4x2048x1024, .f32⟩
  | .hbm, ⟨48, _⟩ => ⟨S1x1024, .f32⟩
  | .hbm, ⟨49, _⟩ => ⟨S1024, .f32⟩
  | .hbm, ⟨50, _⟩ => ⟨S1x1x1024, .f32⟩
  | .hbm, ⟨51, _⟩ => ⟨S4x2048x1024, .f32⟩
  | .hbm, ⟨52, _⟩ => ⟨S4x2048x1024, .f32⟩
  | .hbm, ⟨53, _⟩ => ⟨S_, .f32⟩
  | .hbm, ⟨54, _⟩ => ⟨S4x2048x1024, .f32⟩
  | .hbm, ⟨55, _⟩ => ⟨S4x2048x1024, .f32⟩
  | .hbm, ⟨56, _⟩ => ⟨S1x1024x1024, .f32⟩
  | .hbm, ⟨57, _⟩ => ⟨S1024x1024, .f32⟩
  | .hbm, ⟨58, _⟩ => ⟨S4x2048x1024, .f32⟩
  | .hbm, ⟨59, _⟩ => ⟨S1x1024, .f32⟩
  | .hbm, ⟨60, _⟩ => ⟨S1024, .f32⟩
  | .hbm, ⟨61, _⟩ => ⟨S1x1x1024, .f32⟩
  | .hbm, ⟨62, _⟩ => ⟨S4x2048x1024, .f32⟩
  | .hbm, ⟨63, _⟩ => ⟨S4x2048x1024, .f32⟩
  | .hbm, ⟨64, _⟩ => ⟨S_, .f32⟩
  | .hbm, ⟨65, _⟩ => ⟨S4x2048x1024, .f32⟩
  | .hbm, ⟨66, _⟩ => ⟨S4x2048x1024, .f32⟩
  | .hbm, ⟨67, _⟩ => ⟨S1x1024x1024, .f32⟩
  | .hbm, ⟨68, _⟩ => ⟨S1024x1024, .f32⟩
  | .hbm, ⟨69, _⟩ => ⟨S4x2048x1024, .f32⟩
  | .hbm, ⟨70, _⟩ => ⟨S1x1024, .f32⟩
  | .hbm, ⟨71, _⟩ => ⟨S1024, .f32⟩
  | .hbm, ⟨72, _⟩ => ⟨S1x1x1024, .f32⟩
  | .hbm, ⟨73, _⟩ => ⟨S4x2048x1024, .f32⟩
  | .hbm, ⟨74, _⟩ => ⟨S4x2048x1024, .f32⟩
  | .hbm, ⟨75, _⟩ => ⟨S_, .f32⟩
  | .hbm, ⟨76, _⟩ => ⟨S4x2048x1024, .f32⟩
  | .hbm, ⟨77, _⟩ => ⟨S4x2048x1024, .f32⟩
  | .hbm, ⟨78, _⟩ => ⟨S1x1024x1024, .f32⟩
  | .hbm, ⟨79, _⟩ => ⟨S1024x1024, .f32⟩
  | .hbm, ⟨80, _⟩ => ⟨S4x2048x1024, .f32⟩
  | .hbm, ⟨81, _⟩ => ⟨S1x1024, .f32⟩
  | .hbm, ⟨82, _⟩ => ⟨S1024, .f32⟩
  | .hbm, ⟨83, _⟩ => ⟨S1x1x1024, .f32⟩
  | .hbm, ⟨84, _⟩ => ⟨S4x2048x1024, .f32⟩
  | .hbm, ⟨85, _⟩ => ⟨S4x2048x1024, .f32⟩
  | _, _ => ⟨S4x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call1_cst : Ref sig .tc := ⟨.hbm, 20, rfl⟩
abbrev main_call1_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call2_cst : Ref sig .tc := ⟨.hbm, 31, rfl⟩
abbrev main_call2_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call3_cst : Ref sig .tc := ⟨.hbm, 42, rfl⟩
abbrev main_call3_v0 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_call4_cst : Ref sig .tc := ⟨.hbm, 53, rfl⟩
abbrev main_call4_v0 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_call5_cst : Ref sig .tc := ⟨.hbm, 64, rfl⟩
abbrev main_call5_v0 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_call6_cst : Ref sig .tc := ⟨.hbm, 75, rfl⟩
abbrev main_call6_v0 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x1024 : S_.BroadcastsInDim S4x2048x1024 (![] : Fin 0 → Fin S4x2048x1024.rank)
  slices_S7x1024x1024_S1x1024x1024_0_0_0 : S7x1024x1024.Slices ![0, 0, 0] S1x1024x1024
  shapeCasts_S1x1024x1024_S1024x1024 : S1x1024x1024.ShapeCasts S1024x1024
  slices_S7x1024_S1x1024_0_0 : S7x1024.Slices ![0, 0] S1x1024
  shapeCasts_S1x1024_S1024 : S1x1024.ShapeCasts S1024
  slices_S7x1024x1024_S1x1024x1024_1_0_0 : S7x1024x1024.Slices ![1, 0, 0] S1x1024x1024
  slices_S7x1024_S1x1024_1_0 : S7x1024.Slices ![1, 0] S1x1024
  slices_S7x1024x1024_S1x1024x1024_2_0_0 : S7x1024x1024.Slices ![2, 0, 0] S1x1024x1024
  slices_S7x1024_S1x1024_2_0 : S7x1024.Slices ![2, 0] S1x1024
  slices_S7x1024x1024_S1x1024x1024_3_0_0 : S7x1024x1024.Slices ![3, 0, 0] S1x1024x1024
  slices_S7x1024_S1x1024_3_0 : S7x1024.Slices ![3, 0] S1x1024
  slices_S7x1024x1024_S1x1024x1024_4_0_0 : S7x1024x1024.Slices ![4, 0, 0] S1x1024x1024
  slices_S7x1024_S1x1024_4_0 : S7x1024.Slices ![4, 0] S1x1024
  slices_S7x1024x1024_S1x1024x1024_5_0_0 : S7x1024x1024.Slices ![5, 0, 0] S1x1024x1024
  slices_S7x1024_S1x1024_5_0 : S7x1024.Slices ![5, 0] S1x1024
  slices_S7x1024x1024_S1x1024x1024_6_0_0 : S7x1024x1024.Slices ![6, 0, 0] S1x1024x1024
  slices_S7x1024_S1x1024_6_0 : S7x1024.Slices ![6, 0] S1x1024
  dot_S4x2048x64_S1024x64_S4x2048x1024_2_1_01_0_n_n_wf : DotDims.WF S4x2048x64 S1024x64 S4x2048x1024 [2] [1] [0, 1] [0] [] []
  dot_S4x2048x1024_S1024x1024_S4x2048x1024_2_1_01_0_n_n_wf : DotDims.WF S4x2048x1024 S1024x1024 S4x2048x1024 [2] [1] [0, 1] [0] [] []

variable [Facts₀]

def dot_S4x2048x64_S1024x64_S4x2048x1024_2_1_01_0_n_n : DotDims S4x2048x64 S1024x64 S4x2048x1024 where
  lhsContracting := [2]
  rhsContracting := [1]
  lhsNonContracting := [0, 1]
  rhsNonContracting := [0]
  lhsBatch := []
  rhsBatch := []
  wf := dot_S4x2048x64_S1024x64_S4x2048x1024_2_1_01_0_n_n_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.LibMlpLayer.lean ====
/-
  One dense layer of a multilayer perceptron, read row by row on the extended reals.

  A layer sends a row `h` of `K` activations to the row `j ↦ (∑ q, h q · W j q) + b j` of `N` activations (`lin`),
  after a rectifier `v ↦ max v 0` on every entry (`relu`).  Two programs compute it: a kernel, on a block of rows
  `[m, K]` against the TRANSPOSED weights `[K, N]` — a matrix product into a zero accumulator, plus the bias vector
  cast to one row and broadcast down the rows —, and a host program on a stack of rows `[A, B, K]` against the weights
  `[N, K]` — a `dot_general` contracting the last axes, plus the bias vector broadcast in two steps.  Each is read here
  at one row as `lin`; the rectifier on either side as `relu`; and the slab `c` of a stack of weight matrices or bias
  rows — cut out by a unit-stride load or by a slice, then cast to drop the unit axis — at an entry of the stack.
  Any extents.
-/
import Idealize.ShloMosaic.Lib.ValueIdx
import Idealize.ShloMosaic.Lib.ValueLayout
import Idealize.ShloMosaic.Lib.Pipeline.Value
import Idealize.ShloMosaic.PureOps.Ideal.Laws
import proofs.«109470_j74878459838520_1_alg».proof.Proof.LibPlainDot

noncomputable section

namespace Cert.MlpLayer

open Idealize.ShloMosaic Idealize.ShloMosaic.ValueIdx

/-- One affine layer on a row: `j ↦ (∑ q, h q · W j q) + b j`. -/
def lin {K N : Nat} (W : Fin N → Fin K → EReal) (b : Fin N → EReal) (h : Fin K → EReal) : Fin N → EReal :=
  fun j => (∑ q : Fin K, h q * W j q) + b j

/-- The rectifier on a row: `max v 0` entry by entry (the zero is the f32 word of `+0.0`). -/
def relu {N : Nat} (h : Fin N → EReal) : Fin N → EReal :=
  fun j => max (h j) (Ideal.ofBits .f32 0x00000000#32)

/-- A layer depends on its weights, bias and input row only through their values. -/
theorem lin_congr {K N : Nat} {W W' : Fin N → Fin K → EReal} {b b' : Fin N → EReal} {h h' : Fin K → EReal}
    (h1 : W = W') (h2 : b = b') (h3 : h = h') : lin W b h = lin W' b' h' := by
  subst h1 h2 h3; rfl

/-! ## The kernel's layer on a block of rows -/

section Kernel
variable {m k n : Nat} {φ₁ φ₂ : FTy}

/-- A bias vector cast to one row and broadcast down the rows reads, at `(p, j)`, the vector at `j`. -/
theorem bias_rows (v : FVec Ideal ⟨1, ![n]⟩ .f32) (hc : (⟨1, ![n]⟩ : Shape).ShapeCasts ⟨2, ![1, n]⟩)
    (hb : (⟨2, ![1, n]⟩ : Shape).Broadcasts ⟨2, ![m, n]⟩) (p : Fin m) (j : Fin n) :
    broadcastTo ⟨2, ![m, n]⟩ (shapeCast ⟨2, ![1, n]⟩ v hc) hb (ix2 p j) = v (ix1 j) :=
  (broadcastTo_1b_ab_apply _ hb p j).trans (shapeCast_a_1a_apply v hc 0 j)

/-- Row `p` of the kernel's layer — the product of a block `a` with the transposed weights `w` into the zero
    accumulator, plus the bias row — is `lin` of row `p` of `a`. -/
theorem kernel_dense (D : DotDims ⟨2, ![m, k]⟩ ⟨2, ![k, n]⟩ ⟨2, ![m, n]⟩) (hD : D = DotDims.plain m k n)
    (prec : Option ContractPrecision) (a : FVec Ideal ⟨2, ![m, k]⟩ φ₁) (w : FVec Ideal ⟨2, ![k, n]⟩ φ₂)
    (v : FVec Ideal ⟨1, ![n]⟩ .f32) (hc : (⟨1, ![n]⟩ : Shape).ShapeCasts ⟨2, ![1, n]⟩)
    (hb : (⟨2, ![1, n]⟩ : Shape).Broadcasts ⟨2, ![m, n]⟩) (p : Fin m) :
    (fun j : Fin n => addf (matmul D prec a w (constant (F := Ideal) ⟨2, ![m, n]⟩ .f32 0x00000000#32))
        (broadcastTo ⟨2, ![m, n]⟩ (shapeCast ⟨2, ![1, n]⟩ v hc) hb) (ix2 p j))
      = lin (fun j q => w (ix2 q j)) (fun j => v (ix1 j)) (fun q => a (ix2 p q)) := by
  funext j
  show matmul D prec a w _ (ix2 p j) + broadcastTo _ _ hb (ix2 p j) = _
  rw [Cert.PlainDot.matmul_zero_ix2 D hD, bias_rows]
  rfl

/-- Row `p` of the rectified block, in whatever narrower format it is then kept, is `relu` of row `p`. -/
theorem kernel_relu {ψ : FTy} (h : FVec Ideal ⟨2, ![m, n]⟩ .f32) (hlt : ψ.bits < FTy.bits .f32) (p : Fin m) :
    (fun q : Fin n => truncf ψ (maximumf h (broadcast ⟨2, ![m, n]⟩ (Scalar.ofBits (F := Ideal) .f32 0x00000000#32))) hlt (ix2 p q))
      = relu (fun q => h (ix2 p q)) := rfl

end Kernel

/-! ## One matrix, or one row, of a stack -/

section Slabs
variable {α : Type} {Val : EltTy → Type} {e : EltTy} {K a b : Nat}

/-- Matrix `c` of a stack `[K, a, b]`, loaded through the unit-stride rectangle at `(c, 0, 0)` of extents
    `(1, a, b)` and cast to `[a, b]`, reads at `(i, j)` the stack at `(c, i, j)`. -/
theorem ld_matrix (x : (⟨3, ![K, a, b]⟩ : Shape).Idx → Val e) (c : Nat)
    (inb : ∀ ax, (![c, 0, 0] : Fin 3 → Nat) ax + (⟨3, ![1, a, b]⟩ : Shape).size ax ≤ (⟨3, ![K, a, b]⟩ : Shape).size ax)
    (hc : (⟨3, ![1, a, b]⟩ : Shape).ShapeCasts ⟨2, ![a, b]⟩) (i : Fin a) (j : Fin b) :
    shapeCast ⟨2, ![a, b]⟩ (View.ld x (Rect.unit (s := ⟨3, ![K, a, b]⟩) ![c, 0, 0] (⟨3, ![1, a, b]⟩ : Shape).size inb)) hc (ix2 i j)
      = x (ix3 ⟨c, inb 0⟩ i j) := by
  refine (shapeCast_1ab_ab_apply _ hc i j).trans ?_
  refine congrArg x (funext fun ax => Fin.ext ?_)
  match ax with
  | ⟨0, _⟩ => show c + 1 * 0 = c; omega
  | ⟨1, _⟩ => show 0 + 1 * i.val = i.val; omega
  | ⟨2, _⟩ => show 0 + 1 * j.val = j.val; omega

/-- Row `c` of a stack `[K, b]`, loaded through the unit-stride rectangle at `(c, 0)` of extents `(1, b)` and cast to
    `[b]`, reads at `j` the stack at `(c, j)`. -/
theorem ld_row (x : (⟨2, ![K, b]⟩ : Shape).Idx → Val e) (c : Nat)
    (inb : ∀ ax, (![c, 0] : Fin 2 → Nat) ax + (⟨2, ![1, b]⟩ : Shape).size ax ≤ (⟨2, ![K, b]⟩ : Shape).size ax)
    (hc : (⟨2, ![1, b]⟩ : Shape).ShapeCasts ⟨1, ![b]⟩) (j : Fin b) :
    shapeCast ⟨1, ![b]⟩ (View.ld x (Rect.unit (s := ⟨2, ![K, b]⟩) ![c, 0] (⟨2, ![1, b]⟩ : Shape).size inb)) hc (ix1 j)
      = x (ix2 ⟨c, inb 0⟩ j) := by
  refine (shapeCast_1a_a_apply _ hc j).trans ?_
  refine congrArg x (funext fun ax => Fin.ext ?_)
  match ax with
  | ⟨0, _⟩ => show c + 1 * 0 = c; omega
  | ⟨1, _⟩ => show 0 + 1 * j.val = j.val; omega

/-- Matrix `c` of a stack `[K, a, b]`, sliced out at `(c, 0, 0)` and cast to `[a, b]`, reads at `(i, j)` the stack at
    `(c, i, j)`. -/
theorem slice_matrix (x : (⟨3, ![K, a, b]⟩ : Shape).Idx → α) (c : Nat)
    (hs : (⟨3, ![K, a, b]⟩ : Shape).Slices ![c, 0, 0] ⟨3, ![1, a, b]⟩)
    (hc : (⟨3, ![1, a, b]⟩ : Shape).ShapeCasts ⟨2, ![a, b]⟩) (i : Fin a) (j : Fin b) :
    shapeCast ⟨2, ![a, b]⟩ (extractStridedSlice ⟨3, ![1, a, b]⟩ ![c, 0, 0] x hs) hc (ix2 i j) = x (ix3 ⟨c, hs.2 0⟩ i j) := by
  refine (shapeCast_1ab_ab_apply _ hc i j).trans ?_
  refine extractStridedSlice_apply _ x hs _ _ fun ax => ?_
  match ax with
  | ⟨0, _⟩ => show c = c + 0; omega
  | ⟨1, _⟩ => show i.val = 0 + i.val; omega
  | ⟨2, _⟩ => show j.val = 0 + j.val; omega

/-- Row `c` of a stack `[K, b]`, sliced out at `(c, 0)` and cast to `[b]`, reads at `j` the stack at `(c, j)`. -/
theorem slice_row (x : (⟨2, ![K, b]⟩ : Shape).Idx → α) (c : Nat)
    (hs : (⟨2, ![K, b]⟩ : Shape).Slices ![c, 0] ⟨2, ![1, b]⟩)
    (hc : (⟨2, ![1, b]⟩ : Shape).ShapeCasts ⟨1, ![b]⟩) (j : Fin b) :
    shapeCast ⟨1, ![b]⟩ (extractStridedSlice ⟨2, ![1, b]⟩ ![c, 0] x hs) hc (ix1 j) = x (ix2 ⟨c, hs.2 0⟩ j) := by
  refine (shapeCast_1a_a_apply _ hc j).trans ?_
  refine extractStridedSlice_apply _ x hs _ _ fun ax => ?_
  match ax with
  | ⟨0, _⟩ => show c = c + 0; omega
  | ⟨1, _⟩ => show j.val = 0 + j.val; omega

end Slabs

/-! ## The host's layer on a stack of rows -/

section Host
variable {A B k n : Nat} {φ₁ φ₂ : FTy}

/-- A bias vector broadcast to `[1, 1, n]` and then over the stack reads, at `(b, p, j)`, the vector at `j`. -/
theorem bias_stack {α : Type} (v : (⟨1, ![n]⟩ : Shape).Idx → α)
    (h1 : (⟨1, ![n]⟩ : Shape).BroadcastsInDim ⟨3, ![1, 1, n]⟩ ![2])
    (h2 : (⟨3, ![1, 1, n]⟩ : Shape).BroadcastsInDim ⟨3, ![A, B, n]⟩ ![0, 1, 2]) (b : Fin A) (p : Fin B) (j : Fin n) :
    broadcastInDim ⟨3, ![A, B, n]⟩ ![0, 1, 2] h2 (broadcastInDim ⟨3, ![1, 1, n]⟩ ![2] h1 v) (ix3 b p j) = v (ix1 j) := by
  refine (broadcastInDim_apply _ h2 _ (ix3 b p j) (ix3 (0 : Fin 1) (0 : Fin 1) j) fun ax => ?_).trans
    (broadcastInDim_apply _ h1 v _ (ix1 j) fun ax => ?_)
  · match ax with
    | ⟨0, _⟩ => show 0 = if (1 : Nat) = 1 then 0 else b.val; rw [if_pos rfl]
    | ⟨1, _⟩ => show 0 = if (1 : Nat) = 1 then 0 else p.val; rw [if_pos rfl]
    | ⟨2, _⟩ =>
      show j.val = if n = 1 then 0 else j.val
      split
      · have := j.isLt; omega
      · rfl
  · match ax with
    | ⟨0, _⟩ =>
      show j.val = if n = 1 then 0 else j.val
      split
      · have := j.isLt; omega
      · rfl

/-- The dimension numbers of the host's product of a stack of rows `[A, B, k]` with weights `[n, k]`: the last axis of
    each contracted, no batch axis. -/
abbrev rowsDims (wf : DotDims.WF ⟨3, ![A, B, k]⟩ ⟨2, ![n, k]⟩ ⟨3, ![A, B, n]⟩ [2] [1] [0, 1] [0] [] []) :
    DotDims ⟨3, ![A, B, k]⟩ ⟨2, ![n, k]⟩ ⟨3, ![A, B, n]⟩ := ⟨[2], [1], [0, 1], [0], [], [], wf⟩

theorem rows_lhs0 (wf : DotDims.WF ⟨3, ![A, B, k]⟩ ⟨2, ![n, k]⟩ ⟨3, ![A, B, n]⟩ [2] [1] [0, 1] [0] [] [])
    (i : (⟨3, ![A, B, n]⟩ : Shape).Idx) (q : (rowsDims wf).contr.Idx) : ((rowsDims wf).lhsIdx i q 0).val = (i 0).val := by
  unfold DotDims.lhsIdx
  rw [dif_neg (show ¬(0 : Fin 3) ∈ (rowsDims wf).lhsBatch from List.not_mem_nil),
    dif_pos (show (0 : Fin 3) ∈ (rowsDims wf).lhsNonContracting from List.Mem.head _)]
  rfl
theorem rows_lhs1 (wf : DotDims.WF ⟨3, ![A, B, k]⟩ ⟨2, ![n, k]⟩ ⟨3, ![A, B, n]⟩ [2] [1] [0, 1] [0] [] [])
    (i : (⟨3, ![A, B, n]⟩ : Shape).Idx) (q : (rowsDims wf).contr.Idx) : ((rowsDims wf).lhsIdx i q 1).val = (i 1).val := by
  unfold DotDims.lhsIdx
  rw [dif_neg (show ¬(1 : Fin 3) ∈ (rowsDims wf).lhsBatch from List.not_mem_nil),
    dif_pos (show (1 : Fin 3) ∈ (rowsDims wf).lhsNonContracting from List.Mem.tail _ (List.Mem.head _))]
  rfl
theorem rows_rhs0 (wf : DotDims.WF ⟨3, ![A, B, k]⟩ ⟨2, ![n, k]⟩ ⟨3, ![A, B, n]⟩ [2] [1] [0, 1] [0] [] [])
    (i : (⟨3, ![A, B, n]⟩ : Shape).Idx) (q : (rowsDims wf).contr.Idx) : ((rowsDims wf).rhsIdx i q 0).val = (i 2).val := by
  unfold DotDims.rhsIdx
  rw [dif_neg (show ¬(0 : Fin 2) ∈ (rowsDims wf).rhsBatch from List.not_mem_nil),
    dif_pos (show (0 : Fin 2) ∈ (rowsDims wf).rhsNonContracting from List.Mem.head _)]
  rfl

/-- That product at `(b, p, j)` is the sum over `q` of the row's entry `q` times the weight `(j, q)`. -/
theorem dotGeneral_rows (wf : DotDims.WF ⟨3, ![A, B, k]⟩ ⟨2, ![n, k]⟩ ⟨3, ![A, B, n]⟩ [2] [1] [0, 1] [0] [] [])
    (D : DotDims ⟨3, ![A, B, k]⟩ ⟨2, ![n, k]⟩ ⟨3, ![A, B, n]⟩) (hD : D = rowsDims wf)
    (prec : Option ContractPrecision) (l : FVec Ideal ⟨3, ![A, B, k]⟩ φ₁) (r : FVec Ideal ⟨2, ![n, k]⟩ φ₂)
    (b : Fin A) (p : Fin B) (j : Fin n) :
    Host.dotGeneral D prec l r (ix3 b p j) = ∑ q : Fin k, l (ix3 b p q) * r (ix2 j q) := by
  subst hD
  simp only [Host.dotGeneral]
  rw [Ideal.dotGeneral_apply, ← Equiv.sum_comp (contrEquiv1 (rowsDims wf) k rfl rfl).symm]
  refine Finset.sum_congr rfl fun q _ => ?_
  have hq := contrEquiv1_symm_val (rowsDims wf) k rfl rfl q
  have el : (rowsDims wf).lhsIdx (ix3 b p j) ((contrEquiv1 (rowsDims wf) k rfl rfl).symm q) = ix3 b p q :=
    funext fun ax => Fin.ext (by
      match ax with
      | ⟨0, _⟩ => exact rows_lhs0 wf _ _
      | ⟨1, _⟩ => exact rows_lhs1 wf _ _
      | ⟨2, _⟩ => exact ((rowsDims wf).lhsIdx_val_of_single rfl _ _).trans hq)
  have er : (rowsDims wf).rhsIdx (ix3 b p j) ((contrEquiv1 (rowsDims wf) k rfl rfl).symm q) = ix2 j q :=
    funext fun ax => Fin.ext (by
      match ax with
      | ⟨0, _⟩ => exact rows_rhs0 wf _ _
      | ⟨1, _⟩ => exact ((rowsDims wf).rhsIdx_val_of_single rfl _ _).trans hq)
  rw [el, er]

/-- Row `(b, p)` of the host's layer — that product plus the bias broadcast over the stack — is `lin` of row `(b, p)`
    of the operand. -/
theorem host_dense (wf : DotDims.WF ⟨3, ![A, B, k]⟩ ⟨2, ![n, k]⟩ ⟨3, ![A, B, n]⟩ [2] [1] [0, 1] [0] [] [])
    (D : DotDims ⟨3, ![A, B, k]⟩ ⟨2, ![n, k]⟩ ⟨3, ![A, B, n]⟩) (hD : D = rowsDims wf)
    (prec : Option ContractPrecision) (l : FVec Ideal ⟨3, ![A, B, k]⟩ φ₁) (W : FVec Ideal ⟨2, ![n, k]⟩ φ₂)
    (v : FVec Ideal ⟨1, ![n]⟩ .f32) (h1 : (⟨1, ![n]⟩ : Shape).BroadcastsInDim ⟨3, ![1, 1, n]⟩ ![2])
    (h2 : (⟨3, ![1, 1, n]⟩ : Shape).BroadcastsInDim ⟨3, ![A, B, n]⟩ ![0, 1, 2]) (b : Fin A) (p : Fin B) :
    (fun j : Fin n => addf (Host.dotGeneral D prec l W)
        (broadcastInDim ⟨3, ![A, B, n]⟩ ![0, 1, 2] h2 (broadcastInDim ⟨3, ![1, 1, n]⟩ ![2] h1 v)) (ix3 b p j))
      = lin (fun j q => W (ix2 j q)) (fun j => v (ix1 j)) (fun q => l (ix3 b p q)) := by
  funext j
  show Host.dotGeneral D prec l W (ix3 b p j) + broadcastInDim _ _ h2 _ (ix3 b p j) = _
  rw [dotGeneral_rows wf D hD, bias_stack]
  rfl

/-- Row `(b, p)` of the rectified stack — the maximum with the zero constant broadcast from a scalar — is `relu` of row
    `(b, p)`. -/
theorem host_relu (h : FVec Ideal ⟨3, ![A, B, n]⟩ .f32) (h0 : (⟨0, ![]⟩ : Shape).BroadcastsInDim ⟨3, ![A, B, n]⟩ ![])
    (b : Fin A) (p : Fin B) :
    (fun q : Fin n => maximumf h (broadcastInDim ⟨3, ![A, B, n]⟩ ![] h0 (constant (F := Ideal) ⟨0, ![]⟩ .f32 0x00000000#32)) (ix3 b p q))
      = relu (fun q => h (ix3 b p q)) := rfl

end Host

end Cert.MlpLayer

end
-- ==== Proof.Spec.lean ====
/-
  The network both programs compute, on one row.

  Eight affine layers with a rectifier between consecutive ones: a row `x` of 64 inputs goes through the first
  layer (weights `W0 : 1024 × 64`, bias `b0`), and then, for `c = 0, …, 6`, through the rectifier followed by hidden
  layer `c` (weights `Wh c : 1024 × 1024`, bias `bh c`).  No rectifier after the last layer.
-/
import proofs.«109470_j74878459838520_1_alg».proof.Proof.LibMlpLayer

noncomputable section

namespace Cert.Mlp

open Cert.MlpLayer

/-- The rectifier, then hidden layer `c`. -/
def hidden (Wh : Fin 7 → Fin 1024 → Fin 1024 → EReal) (bh : Fin 7 → Fin 1024 → EReal) (c : Nat) (hc : c < 7)
    (h : Fin 1024 → EReal) : Fin 1024 → EReal :=
  lin (Wh ⟨c, hc⟩) (bh ⟨c, hc⟩) (relu h)

/-- The whole network on a row `x`. -/
def mlpRow (W0 : Fin 1024 → Fin 64 → EReal) (b0 : Fin 1024 → EReal) (Wh : Fin 7 → Fin 1024 → Fin 1024 → EReal)
    (bh : Fin 7 → Fin 1024 → EReal) (x : Fin 64 → EReal) : Fin 1024 → EReal :=
  hidden Wh bh 6 (by decide) (hidden Wh bh 5 (by decide) (hidden Wh bh 4 (by decide) (hidden Wh bh 3 (by decide)
    (hidden Wh bh 2 (by decide) (hidden Wh bh 1 (by decide) (hidden Wh bh 0 (by decide) (lin W0 b0 x)))))))

/-- The network depends on its weights and its input only through their values. -/
theorem mlpRow_congr {W0 W0' : Fin 1024 → Fin 64 → EReal} {b0 b0' : Fin 1024 → EReal}
    {Wh Wh' : Fin 7 → Fin 1024 → Fin 1024 → EReal} {bh bh' : Fin 7 → Fin 1024 → EReal} {x x' : Fin 64 → EReal}
    (h1 : W0 = W0') (h2 : b0 = b0') (h3 : Wh = Wh') (h4 : bh = bh') (h5 : x = x') :
    mlpRow W0 b0 Wh bh x = mlpRow W0' b0' Wh' bh' x' := by
  subst h1 h2 h3 h4 h5; rfl

open Idealize.ShloMosaic Idealize.ShloMosaic.ValueIdx in
/-- THE RESULT both programs end with, as a function of the five argument arrays — the inputs `a0 : [4, 2048, 64]`,
    the first layer's weights `a1 : [1024, 64]` and bias `a2 : [1024]`, the hidden layers' weights
    `a3 : [7, 1024, 1024]` and biases `a4 : [7, 1024]` —: entry `(b, p, j)` is output `j` of the network on the row
    `a0 (b, p, ·)`. -/
def netOut (a0 : (⟨3, ![4, 2048, 64]⟩ : Shape).Idx → EReal) (a1 : (⟨2, ![1024, 64]⟩ : Shape).Idx → EReal)
    (a2 : (⟨1, ![1024]⟩ : Shape).Idx → EReal) (a3 : (⟨3, ![7, 1024, 1024]⟩ : Shape).Idx → EReal)
    (a4 : (⟨2, ![7, 1024]⟩ : Shape).Idx → EReal) : (⟨3, ![4, 2048, 1024]⟩ : Shape).Idx → EReal :=
  fun i => mlpRow (fun j q => a1 (ix2 j q)) (fun j => a2 (ix1 j)) (fun c j q => a3 (ix3 c j q)) (fun c j => a4 (ix2 c j))
    (fun q => a0 (ix3 (i 0) (i 1) q)) (i 2)

end Cert.Mlp

end
-- ==== Proof.KernelRow.lean ====
/-
  One row of the kernel's block: the body's stored value at row `p` of the block is the network applied to row `p` of
  the block of inputs, with the weights read off the staged blocks — the first layer's from the transposed `[64, 1024]`
  block, hidden layer `c`'s from matrix `c` of the stack of transposed `[1024, 1024]` matrices, the biases from the
  bias vector and from row `c` of the bias stack.
-/
import proofs.«109470_j74878459838520_1_alg».proof.Proof.Gen.KernelIdeal.Frame
import proofs.«109470_j74878459838520_1_alg».proof.Proof.Spec

noncomputable section

namespace Cert.KernelIdeal.RowValue

open Cert.KernelIdeal Cert.KernelIdeal.Gen Cert.MlpLayer Cert.Mlp
open Idealize.ShloMosaic Idealize.ShloMosaic.ValueIdx

/-- The weights a loaded `[1, 1024, 1024]` slab denotes once cast to a matrix: entry `(j, q)` is the slab's `(q, j)`. -/
def wOf (v : Vec Ideal S1x1024x1024 .bf16) : Fin 1024 → Fin 1024 → EReal :=
  fun j q => shapeCast S1024x1024 v shapeCasts_S1x1024x1024_S1024x1024 (ix2 q j)

/-- The bias a loaded `[1, 1024]` slab denotes once cast to a vector. -/
def bOf (v : Vec Ideal S1x1024 .f32) : Fin 1024 → EReal :=
  fun j => shapeCast S1024 v shapeCasts_S1x1024_S1024 (ix1 j)

/-- The first three layers, each followed by the rectifier. -/
theorem pay2_row (v0 : Vec Ideal S512x64 .bf16) (v2 : Vec Ideal S64x1024 .bf16) (v4 : Vec Ideal S1024 .f32)
    (v12 : Vec Ideal S1x1024x1024 .bf16) (v14 : Vec Ideal S1x1024 .f32) (v23 : Vec Ideal S1x1024x1024 .bf16)
    (v25 : Vec Ideal S1x1024 .f32) (p : Fin 512) :
    (fun q : Fin 1024 => k0_pay2 (F := Ideal) v0 v2 v4 v12 v14 v23 v25 (ix2 p q))
      = relu (lin (wOf v23) (bOf v25) (relu (lin (wOf v12) (bOf v14)
          (relu (lin (fun j q => v2 (ix2 q j)) (fun j => v4 (ix1 j)) (fun q => v0 (ix2 p q))))))) := by
  unfold k0_pay2
  rw [shapeCast_self, shapeCast_self]
  refine (kernel_relu _ _ p).trans (congrArg relu ?_)
  refine (kernel_dense _ rfl none _ _ _ _ _ p).trans (congrArg (lin _ _) ?_)
  refine (kernel_relu _ _ p).trans (congrArg relu ?_)
  refine (kernel_dense _ rfl none _ _ _ _ _ p).trans (congrArg (lin _ _) ?_)
  refine (kernel_relu _ _ p).trans (congrArg relu ?_)
  exact kernel_dense _ rfl none _ _ _ _ _ p

/-- The next three layers, each followed by the rectifier, on the rectified row `v33`. -/
theorem pay3_row (v33 : FVec Ideal S512x1024 .bf16) (v34 : Vec Ideal S1x1024x1024 .bf16) (v36 : Vec Ideal S1x1024 .f32)
    (v45 : Vec Ideal S1x1024x1024 .bf16) (v47 : Vec Ideal S1x1024 .f32) (v56 : Vec Ideal S1x1024x1024 .bf16)
    (v58 : Vec Ideal S1x1024 .f32) (p : Fin 512) :
    (fun q : Fin 1024 => k0_pay3 (F := Ideal) v33 v34 v36 v45 v47 v56 v58 (ix2 p q))
      = relu (lin (wOf v56) (bOf v58) (relu (lin (wOf v45) (bOf v47)
          (relu (lin (wOf v34) (bOf v36) (fun q => v33 (ix2 p q))))))) := by
  unfold k0_pay3
  refine (kernel_relu _ _ p).trans (congrArg relu ?_)
  refine (kernel_dense _ rfl none _ _ _ _ _ p).trans (congrArg (lin _ _) ?_)
  refine (kernel_relu _ _ p).trans (congrArg relu ?_)
  refine (kernel_dense _ rfl none _ _ _ _ _ p).trans (congrArg (lin _ _) ?_)
  refine (kernel_relu _ _ p).trans (congrArg relu ?_)
  exact kernel_dense _ rfl none _ _ _ _ _ p

/-- The last two layers, a rectifier between them and none after, on the rectified row `v66`. -/
theorem pay1_row (v66 : FVec Ideal S512x1024 .bf16) (v68 : FVec Ideal S1024x1024 .bf16) (v70 : FVec Ideal S1024 .f32)
    (v78 : Vec Ideal S1x1024x1024 .bf16) (v80 : Vec Ideal S1x1024 .f32) (p : Fin 512) :
    (fun j : Fin 1024 => k0_pay1 (F := Ideal) v66 v68 v70 (constant S512x1024 .f32 0x00000000#32) v78 v80 (ix2 p j))
      = lin (wOf v78) (bOf v80) (relu (lin (fun j q => v68 (ix2 q j)) (fun j => v70 (ix1 j)) (fun q => v66 (ix2 p q)))) := by
  unfold k0_pay1
  refine (kernel_dense _ rfl none _ _ _ _ _ p).trans (congrArg (lin _ _) ?_)
  refine (kernel_relu _ _ p).trans (congrArg relu ?_)
  exact kernel_dense _ rfl none _ _ _ _ _ p

/-- The weights of a matrix loaded from slab `c` of the stack of transposed matrices. -/
theorem wOf_ld (x3 : Vec Ideal S7x1024x1024 .bf16) (c : Nat)
    (inb : ∀ a, (![c, 0, 0] : Fin 3 → Nat) a + S1x1024x1024.size a ≤ S7x1024x1024.size a) :
    wOf (View.ld x3 (Rect.unit (s := S7x1024x1024) ![c, 0, 0] S1x1024x1024.size inb)) = fun j q => x3 (ix3 ⟨c, inb 0⟩ q j) :=
  funext fun j => funext fun q => ld_matrix x3 c inb _ q j

/-- The bias loaded from row `c` of the bias stack. -/
theorem bOf_ld (x4 : Vec Ideal S7x1024 .f32) (c : Nat)
    (inb : ∀ a, (![c, 0] : Fin 2 → Nat) a + S1x1024.size a ≤ S7x1024.size a) :
    bOf (View.ld x4 (Rect.unit (s := S7x1024) ![c, 0] S1x1024.size inb)) = fun j => x4 (ix2 ⟨c, inb 0⟩ j) :=
  funext fun j => ld_row x4 c inb _ j

/-- The zero offsets of a whole-buffer access, at rank one and rank two. -/
theorem hz1 : (![0] : Fin 1 → Nat) = fun _ => 0 := funext fun a => by fin_cases a; rfl
theorem hz2 : (![0, 0] : Fin 2 → Nat) = fun _ => 0 := funext fun a => by fin_cases a <;> rfl

/-- ROW `p` OF WHAT THE BODY STORES is the network on row `p` of the block of inputs `x0`, the weights read off the
    staged blocks `x1` … `x4`. -/
theorem out_row (x0 : Vec Ideal S512x64 .bf16) (x1 : Vec Ideal S64x1024 .bf16) (x2 : Vec Ideal S1024 .f32)
    (x3 : Vec Ideal S7x1024x1024 .bf16) (x4 : Vec Ideal S7x1024 .f32) (p : Fin 512) :
    (fun j : Fin 1024 => out0_5 (F := Ideal) x0 x1 x2 x3 x4 (ix2 p j))
      = mlpRow (fun j q => x1 (ix2 q j)) (fun j => x2 (ix1 j)) (fun c j q => x3 (ix3 c q j)) (fun c j => x4 (ix2 c j))
          (fun q => x0 (ix2 p q)) := by
  unfold out0_5
  rw [View.canon_unit_zero hz2]
  rw [pay1_row, pay3_row, pay2_row]
  rw [View.ld_unit_zero (S := S512x64) hz2 _ x0, View.ld_unit_zero (S := S64x1024) hz2 _ x1,
    View.ld_unit_zero (S := S1024) hz1 _ x2]
  rw [show (fun j q => k0_pay4 (F := Ideal) (View.ld x3 r0_13) (ix2 q j)) = wOf (View.ld x3 r0_13) from rfl,
    show (fun j => k0_pay5 (F := Ideal) (View.ld x4 r0_14) (ix1 j)) = bOf (View.ld x4 r0_14) from rfl]
  rw [wOf_ld, wOf_ld, wOf_ld, wOf_ld, wOf_ld, wOf_ld, wOf_ld, bOf_ld, bOf_ld, bOf_ld, bOf_ld, bOf_ld, bOf_ld, bOf_ld]
  rfl

end Cert.KernelIdeal.RowValue

end
-- ==== Proof.KernelValue.lean ====
/-
  The kernel's result as a function of the argument arrays.

  The region's output array `[8192, 1024]` is written block by block: grid point `t` writes rows `512 t … 512 t + 511`,
  and row `p` of that block is the network on row `512 t + p` of the flattened inputs (KernelRow), the weights being
  the whole staged arrays (each weight window's block is its whole array).  The sixteen blocks tile the array, so the
  array ends as `blockRows` of the staged arrays.  The staged arrays are the host's re-laid arguments — the inputs
  flattened to `[8192, 64]`, the weight matrices transposed —, and the result is the output array cast back to
  `[4, 2048, 1024]`; read at an index, this is `netOut` of the arguments.
-/
import proofs.«109470_j74878459838520_1_alg».proof.Proof.KernelRow
import Idealize.ShloMosaic.Lib.Pipeline.Value
import Idealize.ShloMosaic.Lib.ValueLayout
import Idealize.ShloMosaic.Lib.StableHlo.Run

set_option maxRecDepth 16384

noncomputable section

namespace Cert.KernelIdeal.RowValue

open Cert.KernelIdeal Cert.KernelIdeal.Gen Cert.MlpLayer Cert.Mlp
open Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

/-- The output array as a function of the staged arrays: row `i 0` is the network on row `i 0` of the flattened
    inputs `X`, with the first layer's weights transposed in `W0t` and the hidden layers' in `Wht`. -/
def blockRows (X : S8192x64.Idx → EReal) (W0t : S64x1024.Idx → EReal) (b0 : S1024.Idx → EReal)
    (Wht : S7x1024x1024.Idx → EReal) (bh : S7x1024.Idx → EReal) : S8192x1024.Idx → EReal :=
  fun i => mlpRow (fun j q => W0t (ix2 q j)) (fun j => b0 (ix1 j)) (fun c j q => Wht (ix3 c q j)) (fun c j => bh (ix2 c j))
    (fun q => X (ix2 (i 0) q)) (i 1)

/-- The printed index maps over the sixteen grid points: the input and output row blocks move together, one block per
    point, and every weight window stays at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s block is row `512 t + p` of the array. -/
def rowAt (t : Fin cfg0.N) (p : Fin 512) : Fin 8192 :=
  ⟨t.val * 512 + p.val, by have h : t.val < 16 := t.isLt; have := p.isLt; omega⟩

/-- The input window's block at point `t`, at `(p, q)`, is the flattened inputs at row `512 t + p`. -/
theorem read0 (c : Dev nD) (t : Fin cfg0.N) (p : Fin 512) (q : Fin 64) :
    iblk m c 0 t (ix2 p q) = V m c main_v1 (ix2 (rowAt t p) q) := by
  obtain ⟨e0, e1, -⟩ := idx_facts t
  show V m c main_v1 (((cfg0.win 0).blk t).view.emb (ix2 p q)) = V m c main_v1 (ix2 (rowAt t p) q)
  have h : ((cfg0.win 0).blk t).view.emb (ix2 p q) = ix2 (rowAt t p) q := by
    funext a; apply Fin.ext
    match a with
    | ⟨0, _⟩ => show win0_0.index t (0 : Fin 2) * 512 + 1 * p.val = t.val * 512 + p.val; omega
    | ⟨1, _⟩ => show win0_0.index t (1 : Fin 2) * 64 + 1 * q.val = q.val; omega
  rw [h]

/-- The first layer's weight window has one block, its whole array. -/
theorem read1 (c : Dev nD) (t : Fin cfg0.N) (y : S64x1024.Idx) : iblk m c 1 t y = V m c main_v3 y := by
  obtain ⟨-, -, e0, e1, -⟩ := idx_facts t
  show V m c main_v3 (((cfg0.win 1).blk t).view.emb y) = V m c main_v3 y
  have h : ((cfg0.win 1).blk t).view.emb y = y := by
    funext a; apply Fin.ext
    match a with
    | ⟨0, _⟩ => show win0_1.index t (0 : Fin 2) * 64 + 1 * (y 0).val = (y 0).val; omega
    | ⟨1, _⟩ => show win0_1.index t (1 : Fin 2) * 1024 + 1 * (y 1).val = (y 1).val; omega
  rw [h]

/-- So has the first layer's bias window, -/
theorem read2 (c : Dev nD) (t : Fin cfg0.N) (y : S1024.Idx) : iblk m c 2 t y = V m c main_arg2 y := by
  obtain ⟨-, -, -, -, e0, -⟩ := idx_facts t
  show V m c main_arg2 (((cfg0.win 2).blk t).view.emb y) = V m c main_arg2 y
  have h : ((cfg0.win 2).blk t).view.emb y = y := by
    funext a; apply Fin.ext
    match a with
    | ⟨0, _⟩ => show win0_2.index t (0 : Fin 1) * 1024 + 1 * (y 0).val = (y 0).val; omega
  rw [h]

/-- the hidden layers' weight window, -/
theorem read3 (c : Dev nD) (t : Fin cfg0.N) (y : S7x1024x1024.Idx) : iblk m c 3 t y = V m c main_v5 y := by
  obtain ⟨-, -, -, -, -, e0, e1, e2, -⟩ := idx_facts t
  show V m c main_v5 (((cfg0.win 3).blk t).view.emb y) = V m c main_v5 y
  have h : ((cfg0.win 3).blk t).view.emb y = y := by
    funext a; apply Fin.ext
    match a with
    | ⟨0, _⟩ => show win0_3.index t (0 : Fin 3) * 7 + 1 * (y 0).val = (y 0).val; omega
    | ⟨1, _⟩ => show win0_3.index t (1 : Fin 3) * 1024 + 1 * (y 1).val = (y 1).val; omega
    | ⟨2, _⟩ => show win0_3.index t (2 : Fin 3) * 1024 + 1 * (y 2).val = (y 2).val; omega
  rw [h]

/-- and the hidden layers' bias window. -/
theorem read4 (c : Dev nD) (t : Fin cfg0.N) (y : S7x1024.Idx) : iblk m c 4 t y = V m c main_arg4 y := by
  obtain ⟨-, -, -, -, -, -, -, -, e0, e1, -⟩ := idx_facts t
  show V m c main_arg4 (((cfg0.win 4).blk t).view.emb y) = V m c main_arg4 y
  have h : ((cfg0.win 4).blk t).view.emb y = y := by
    funext a; apply Fin.ext
    match a with
    | ⟨0, _⟩ => show win0_4.index t (0 : Fin 2) * 7 + 1 * (y 0).val = (y 0).val; omega
    | ⟨1, _⟩ => show win0_4.index t (1 : Fin 2) * 1024 + 1 * (y 1).val = (y 1).val; omega
  rw [h]

/-- Entry `(p, j)` of the output block of point `t` sits in the output array at `(512 t + p, j)`. -/
theorem emb5 (t : Fin cfg0.N) (p : Fin 512) (j : Fin 1024) :
    ((cfg0.win 5).blk t).view.emb (ix2 p j) = ix2 (rowAt t p) j := by
  obtain ⟨-, -, -, -, -, -, -, -, -, -, e0, e1⟩ := idx_facts t
  funext a; apply Fin.ext
  match a with
  | ⟨0, _⟩ => show win0_5.index t (0 : Fin 2) * 512 + 1 * p.val = t.val * 512 + p.val; omega
  | ⟨1, _⟩ => show win0_5.index t (1 : Fin 2) * 1024 + 1 * j.val = j.val; omega

/-- WHAT POINT `t` WRITES BACK is block `t` of `blockRows` of the arrays as the region finds them. -/
theorem flushed_eq (c : Dev nD) (t : Fin cfg0.N) :
    (dats m 0 c).flushed 5 t = ((cfg0.win 5).blk t).view.read (Elt Ideal)
      (blockRows (V m c main_v1) (V m c main_v3) (V m c main_arg2) (V m c main_v5) (V m c main_arg4)) := by
  show (cfg0.win 5).cut (grid0.coords t) ((dats m 0 c).after 5 t) = _
  rw [after0_5]
  funext y
  obtain ⟨p, j, rfl⟩ : ∃ (p : Fin 512) (j : Fin 1024), y = ix2 p j := ⟨y 0, y 1, eq_ix2 y⟩
  show out0_5 (iblk m c 0 t) (iblk m c 1 t) (iblk m c 2 t) (iblk m c 3 t) (iblk m c 4 t) (ix2 p j)
    = blockRows (V m c main_v1) (V m c main_v3) (V m c main_arg2) (V m c main_v5) (V m c main_arg4)
        (((cfg0.win 5).blk t).view.emb (ix2 p j))
  rw [emb5 t p j]
  refine (congrFun (out_row (iblk m c 0 t) (iblk m c 1 t) (iblk m c 2 t) (iblk m c 3 t) (iblk m c 4 t) p) j).trans ?_
  refine congrFun (mlpRow_congr ?_ ?_ ?_ ?_ ?_) j
  · funext j q; exact read1 m c t _
  · funext j; exact read2 m c t _
  · funext k j q; exact read3 m c t _
  · funext k j; exact read4 m c t _
  · funext q; exact read0 m c t p q

/-- An index of the output array is in point `t`'s block iff each coordinate is in the block's range on its axis. -/
theorem mem_blk5 (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v6).slice (win0_5.rect t)).set ↔ _
  rw [View.set_slice_whole, Rect.mem_set_unit]
  exact Iff.rfl

/-- The sixteen blocks tile the output array: row `r` is in the block of point `r / 512`. -/
theorem cover5 (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  have ht : (i 0).val / 512 < 16 := by omega
  refine ⟨⟨(i 0).val / 512, ht⟩, flush0_5 _, ?_⟩
  rw [mem_blk5]
  obtain ⟨-, -, -, -, -, -, -, -, -, -, e0, e1⟩ := idx_facts ⟨(i 0).val / 512, ht⟩
  have e0' : win0_5.index ⟨(i 0).val / 512, ht⟩ (0 : Fin 2) = (i 0).val / 512 := e0
  intro a
  match a with
  | ⟨0, _⟩ =>
    show win0_5.index ⟨(i 0).val / 512, ht⟩ (0 : Fin 2) * 512 ≤ (i 0).val ∧ (i 0).val < win0_5.index ⟨(i 0).val / 512, ht⟩ (0 : Fin 2) * 512 + 512
    omega
  | ⟨1, _⟩ =>
    show win0_5.index ⟨(i 0).val / 512, ht⟩ (1 : Fin 2) * 1024 ≤ (i 1).val ∧ (i 1).val < win0_5.index ⟨(i 0).val / 512, ht⟩ (1 : Fin 2) * 1024 + 1024
    omega

/-- THE OUTPUT ARRAY after the region is `blockRows` of the arrays as the region finds them. -/
theorem final5 (c : Dev nD) : (dats m 0 c).arrAt 5 cfg0.N
    = blockRows (V m c main_v1) (V m c main_v3) (V m c main_arg2) (V m c main_v5) (V m c main_arg4) :=
  (dats m 0 c).arrAt_eq_of_cover 5 _ (fun t _ => flushed_eq m c t) cover5

/-! ## The host's re-laid arguments, and the cast back -/

/-- The flattened inputs as the region finds them: the first argument cast to `[8192, 64]` (the narrowing is the identity). -/
theorem V_v1 (c : Dev nD) : @Eq (S8192x64.Idx → EReal) (V m c main_v1)
    (truncf (F := Ideal) .bf16 (shapeCast S8192x64 (m ((c : Thread nD τ).loc main_arg0)) shapeCasts_S4x2048x64_S8192x64) bitsLt_bf16_f32) := by
  show StableHlo.after hostOps0 (fun b => m (c, b)) (Proc.devRef .tc main_v1) = _
  after_results
  try rfl

/-- The first layer's staged weights: the second argument transposed. -/
theorem V_v3 (c : Dev nD) : @Eq (S64x1024.Idx → EReal) (V m c main_v3)
    (truncf (F := Ideal) .bf16 (transpose S64x1024 [1, 0] (m ((c : Thread nD τ).loc main_arg1)) transposes_S1024x64_S64x1024_1_0) bitsLt_bf16_f32) := by
  show StableHlo.after hostOps0 (fun b => m (c, b)) (Proc.devRef .tc main_v3) = _
  after_results
  try rfl

/-- The hidden layers' staged weights: each matrix of the fourth argument transposed. -/
theorem V_v5 (c : Dev nD) : @Eq (S7x1024x1024.Idx → EReal) (V m c main_v5)
    (truncf (F := Ideal) .bf16 (transpose S7x1024x1024 [0, 2, 1] (m ((c : Thread nD τ).loc main_arg3)) transposes_S7x1024x1024_S7x1024x1024_0_2_1) bitsLt_bf16_f32) := by
  show StableHlo.after hostOps0 (fun b => m (c, b)) (Proc.devRef .tc main_v5) = _
  after_results
  try rfl

/-- The result buffer after the host's last line: the region's output array cast to `[4, 2048, 1024]`. -/
theorem tail_eq (c : Dev nD) :
    Pipeline.afterTail₀ cfgs (dats m) 0 (V0 m) [hostOps1] c main_v7
      = shapeCast S4x2048x1024 ((dats m 0 c).arrAt 5 cfg0.N) shapeCasts_S8192x1024_S4x2048x1024 := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v6)
      = (dats m 0 c).arrAt 5 cfg0.N := Pipeline.withArrays_arr spec0 launch0.win.arr_inj c _ _ 5
  rw [e]
  rfl

/-- THE RESULT: the output array cast back to `[4, 2048, 1024]` is `netOut` of the argument arrays — row `(b, p)` of
    the result is row `2048 b + p` of the output array, whose inputs are row `(b, p)` of the first argument; the staged
    weights are the arguments' transposes. -/
theorem result_eq (c : Dev nD) :
    shapeCast S4x2048x1024 (blockRows (V m c main_v1) (V m c main_v3) (V m c main_arg2) (V m c main_v5) (V m c main_arg4))
        shapeCasts_S8192x1024_S4x2048x1024
      = netOut (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  obtain ⟨b, p, j, rfl⟩ : ∃ (b : Fin 4) (p : Fin 2048) (j : Fin 1024), i = ix3 b p j := ⟨i 0, i 1, i 2, eq_ix3 i⟩
  have hr : b.val * 2048 + p.val < 8192 := by have := b.isLt; have := p.isLt; omega
  refine (shapeCast_apply _ shapeCasts_S8192x1024_S4x2048x1024 (ix3 b p j) (ix2 ⟨b.val * 2048 + p.val, hr⟩ j) (by
    rw [Shape.rowMajor_val_two, Shape.rowMajor_val_three]
    show (b.val * 2048 + p.val) * 1024 + j.val = (b.val * 2048 + p.val) * 1024 + j.val
    rfl)).trans ?_
  show mlpRow _ _ _ _ _ j = mlpRow _ _ _ _ _ j
  refine congrFun (mlpRow_congr ?_ ?_ ?_ ?_ ?_) j
  · funext j q
    exact (congrFun (V_v3 m c) (ix2 q j)).trans (transpose_ix2_apply _ transposes_S1024x64_S64x1024_1_0 q j)
  · funext j
    exact congrFun (V_main_arg2 m c) (ix1 j)
  · funext k j q
    exact (congrFun (V_v5 m c) (ix3 k q j)).trans
      (transpose_ix3_021_apply _ transposes_S7x1024x1024_S7x1024x1024_0_2_1 k q j)
  · funext k j
    exact congrFun (V_main_arg4 m c) (ix2 k j)
  · funext q
    exact (congrFun (V_v1 m c) (ix2 ⟨b.val * 2048 + p.val, hr⟩ q)).trans
      (shapeCast_apply _ shapeCasts_S4x2048x64_S8192x64 _ (ix3 b p q) (by
        rw [Shape.rowMajor_val_three, Shape.rowMajor_val_two]
        show (b.val * 2048 + p.val) * 64 + q.val = (b.val * 2048 + p.val) * 64 + q.val
        rfl))

/-- THE KERNEL'S RUN, read: every weakly fair execution terminates with the result buffer at `netOut` of the launch
    contents of the five arguments, and the arguments as launched. -/
theorem run : θ_run defs (onTc (τ := τ) (main (F := Ideal))) ⟨m, fun _ => 0, ρ⟩ fun r => ∀ c : Dev nD,
      r.2.mem ((c.tc : Thread nD τ).loc main_v7)
        = netOut (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v7 (Pipeline.mem_restRefs_of main_v7 (by decide) (by decide))).trans
        ((tail_eq m c).trans (by rw [final5]; exact result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c)))⟩)
    (run_main m ρ)

end Cert.KernelIdeal.RowValue

end
-- ==== Proof.RefValue.lean ====
/-
  The reference, row by row: its result at `(b, p, ·)` is the network on the row `x (b, p, ·)` of its first
  argument.  Each of its eight layers is a `dot_general` of the stack of rows with a weight matrix — the first
  argument's, or one matrix sliced out of the stack of hidden weights — plus a bias broadcast over the stack; between
  consecutive layers the outlined rectifier, a maximum with the zero constant.
-/
import proofs.«109470_j74878459838520_1_alg».proof.Proof.Gen.ReferenceIdeal.Read
import proofs.«109470_j74878459838520_1_alg».proof.Proof.Spec

noncomputable section

namespace Cert.ReferenceIdeal.RefValue

open Cert.ReferenceIdeal Cert.ReferenceIdeal.Gen Cert.ReferenceIdeal.Read Cert.MlpLayer Cert.Mlp
open Idealize.ShloMosaic Idealize.ShloMosaic.ValueIdx

/-- The rectifier and hidden layer `c` on a stack of rows `h`, spelt in the host's operations, at row `(b, p)`. -/
theorem hidden_layer (h : FVec Ideal S4x2048x1024 .f32) (x3 : FVec Ideal S7x1024x1024 .f32) (x4 : FVec Ideal S7x1024 .f32)
    (c : Nat) (hs3 : S7x1024x1024.Slices ![c, 0, 0] S1x1024x1024) (hs4 : S7x1024.Slices ![c, 0] S1x1024)
    (b : Fin 4) (p : Fin 2048) :
    (fun j : Fin 1024 => addf
        (Host.dotGeneral dot_S4x2048x1024_S1024x1024_S4x2048x1024_2_1_01_0_n_n none
          (maximumf h (broadcastInDim S4x2048x1024 ![] bcast_S_S4x2048x1024 (constant (F := Ideal) S_ .f32 0x00000000#32)))
          (shapeCast S1024x1024 (extractStridedSlice S1x1024x1024 ![c, 0, 0] x3 hs3) shapeCasts_S1x1024x1024_S1024x1024))
        (broadcastInDim S4x2048x1024 ![0, 1, 2] bcast_S1x1x1024_S4x2048x1024_0_1_2
          (broadcastInDim S1x1x1024 ![2] bcast_S1024_S1x1x1024_2
            (shapeCast S1024 (extractStridedSlice S1x1024 ![c, 0] x4 hs4) shapeCasts_S1x1024_S1024))) (ix3 b p j))
      = hidden (fun c j q => x3 (ix3 c j q)) (fun c j => x4 (ix2 c j)) c (hs3.2 0) (fun q => h (ix3 b p q)) :=
  (host_dense dot_S4x2048x1024_S1024x1024_S4x2048x1024_2_1_01_0_n_n_wf _ rfl none _ _ _ _ _ b p).trans
    (lin_congr (funext fun j => funext fun q => slice_matrix x3 c hs3 _ j q) (funext fun j => slice_row x4 c hs4 _ j)
      (host_relu h _ b p))

variable (x0 : FVec Ideal S4x2048x64 .f32) (x1 : FVec Ideal S1024x64 .f32) (x2 : FVec Ideal S1024 .f32)
  (x3 : FVec Ideal S7x1024x1024 .f32) (x4 : FVec Ideal S7x1024 .f32) (b : Fin 4) (p : Fin 2048)

local notation "Wh" => (fun (c : Fin 7) (j q : Fin 1024) => x3 (ix3 c j q))
local notation "bh" => (fun (c : Fin 7) (j : Fin 1024) => x4 (ix2 c j))

theorem layer0 : (fun j : Fin 1024 => val_main_v3 (F := Ideal) x0 x1 x2 (ix3 b p j))
    = lin (fun j q => x1 (ix2 j q)) (fun j => x2 (ix1 j)) (fun q => x0 (ix3 b p q)) :=
  host_dense dot_S4x2048x64_S1024x64_S4x2048x1024_2_1_01_0_n_n_wf _ rfl none x0 x1 x2 _ _ b p

theorem layer1 : (fun j : Fin 1024 => val_main_v12 (F := Ideal) x0 x1 x2 x3 x4 (ix3 b p j))
    = hidden Wh bh 0 (by decide) (fun q => val_main_v3 (F := Ideal) x0 x1 x2 (ix3 b p q)) :=
  hidden_layer (val_main_v3 (F := Ideal) x0 x1 x2) x3 x4 0 _ _ b p

theorem layer2 : (fun j : Fin 1024 => val_main_v21 (F := Ideal) x0 x1 x2 x3 x4 (ix3 b p j))
    = hidden Wh bh 1 (by decide) (fun q => val_main_v12 (F := Ideal) x0 x1 x2 x3 x4 (ix3 b p q)) :=
  hidden_layer (val_main_v12 (F := Ideal) x0 x1 x2 x3 x4) x3 x4 1 _ _ b p

theorem layer3 : (fun j : Fin 1024 => val_main_v30 (F := Ideal) x0 x1 x2 x3 x4 (ix3 b p j))
    = hidden Wh bh 2 (by decide) (fun q => val_main_v21 (F := Ideal) x0 x1 x2 x3 x4 (ix3 b p q)) :=
  hidden_layer (val_main_v21 (F := Ideal) x0 x1 x2 x3 x4) x3 x4 2 _ _ b p

theorem layer4 : (fun j : Fin 1024 => val_main_v39 (F := Ideal) x0 x1 x2 x3 x4 (ix3 b p j))
    = hidden Wh bh 3 (by decide) (fun q => val_main_v30 (F := Ideal) x0 x1 x2 x3 x4 (ix3 b p q)) :=
  hidden_layer (val_main_v30 (F := Ideal) x0 x1 x2 x3 x4) x3 x4 3 _ _ b p

theorem layer5 : (fun j : Fin 1024 => val_main_v48 (F := Ideal) x0 x1 x2 x3 x4 (ix3 b p j))
    = hidden Wh bh 4 (by decide) (fun q => val_main_v39 (F := Ideal) x0 x1 x2 x3 x4 (ix3 b p q)) :=
  hidden_layer (val_main_v39 (F := Ideal) x0 x1 x2 x3 x4) x3 x4 4 _ _ b p

theorem layer6 : (fun j : Fin 1024 => val_main_v57 (F := Ideal) x0 x1 x2 x3 x4 (ix3 b p j))
    = hidden Wh bh 5 (by decide) (fun q => val_main_v48 (F := Ideal) x0 x1 x2 x3 x4 (ix3 b p q)) :=
  hidden_layer (val_main_v48 (F := Ideal) x0 x1 x2 x3 x4) x3 x4 5 _ _ b p

theorem layer7 : (fun j : Fin 1024 => val_main_v66 (F := Ideal) x0 x1 x2 x3 x4 (ix3 b p j))
    = hidden Wh bh 6 (by decide) (fun q => val_main_v57 (F := Ideal) x0 x1 x2 x3 x4 (ix3 b p q)) :=
  hidden_layer (val_main_v57 (F := Ideal) x0 x1 x2 x3 x4) x3 x4 6 _ _ b p

/-- THE REFERENCE'S RESULT is `netOut` of its arguments. -/
theorem result_eq : val_main_v66 (F := Ideal) x0 x1 x2 x3 x4 = netOut x0 x1 x2 x3 x4 := by
  funext i
  obtain ⟨b, p, j, rfl⟩ : ∃ (b : Fin 4) (p : Fin 2048) (j : Fin 1024), i = ix3 b p j := ⟨i 0, i 1, i 2, eq_ix3 i⟩
  show (fun j : Fin 1024 => val_main_v66 (F := Ideal) x0 x1 x2 x3 x4 (ix3 b p j)) j
    = mlpRow (fun j q => x1 (ix2 j q)) (fun j => x2 (ix1 j)) Wh bh (fun q => x0 (ix3 b p q)) j
  rw [layer7, layer6, layer5, layer4, layer3, layer2, layer1, layer0]
  rfl

end Cert.ReferenceIdeal.RefValue

end
-- ==== Proof.lean ====
/-
  The certificate of an eight-layer perceptron kernel against its jnp reference.

  Both programs apply, to each of the 8192 rows of the inputs, a first affine layer `64 → 1024` and seven hidden
  layers `1024 → 1024`, a rectifier between consecutive layers (Proof/Spec.lean: `mlpRow`, `netOut`).  The kernel works
  on the inputs flattened to `[8192, 64]`, sixteen blocks of 512 rows, against weights the host has transposed, and its
  output `[8192, 1024]` is cast back to `[4, 2048, 1024]`; its narrowings to bf16 before each product are the identity on
  the extended reals, and a product into a zero accumulator is the plain sum.  The reference contracts the last axes of
  the stack `[4, 2048, K]` and of the untransposed weights.  Entry by entry both are the same sums of the same products
  in the same order, so no law of the extended reals beyond reading the operations is needed, and the precondition is
  never opened.

  Frames: the two kernel programs' are the generated frame certificates; the reference's is its generated run with the
  result dropped.  `preserves` is `True` (the ideal pass rewrote nothing).  `algebraic`: the kernel's run read at its
  result (Proof/KernelValue.lean, over Proof/KernelRow.lean) and the reference's generated run read layer by layer
  (Proof/RefValue.lean) end at the one function `netOut` of arguments that agree.
-/
import proofs.«109470_j74878459838520_1_alg».proof.Defs
import proofs.«109470_j74878459838520_1_alg».proof.Proof.Gen.Kernel
import proofs.«109470_j74878459838520_1_alg».proof.Proof.Gen.Kernel.Skeleton
import proofs.«109470_j74878459838520_1_alg».proof.Proof.Gen.Kernel.Launch
import proofs.«109470_j74878459838520_1_alg».proof.Proof.Gen.Kernel.Points
import proofs.«109470_j74878459838520_1_alg».proof.Proof.Gen.Kernel.Frame
import proofs.«109470_j74878459838520_1_alg».proof.Proof.Gen.KernelIdeal
import proofs.«109470_j74878459838520_1_alg».proof.Proof.Gen.KernelIdeal.Skeleton
import proofs.«109470_j74878459838520_1_alg».proof.Proof.Gen.KernelIdeal.Launch
import proofs.«109470_j74878459838520_1_alg».proof.Proof.Gen.KernelIdeal.Points
import proofs.«109470_j74878459838520_1_alg».proof.Proof.Gen.KernelIdeal.Frame
import proofs.«109470_j74878459838520_1_alg».proof.Proof.Gen.ReferenceIdeal
import proofs.«109470_j74878459838520_1_alg».proof.Proof.Gen.Pre_finite_inputs
import proofs.«109470_j74878459838520_1_alg».proof.Proof.Gen.ReferenceIdeal.Run
import proofs.«109470_j74878459838520_1_alg».proof.Proof.Gen.ReferenceIdeal.Read
import proofs.«109470_j74878459838520_1_alg».proof.Proof.KernelValue
import proofs.«109470_j74878459838520_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at `netOut` of the arguments: the kernel's of its own launch contents, the
    reference's of launch contents that agree with them. -/
theorem algebraic : Cert.algebraic_KernelIdeal_ReferenceIdeal := by
  intro m ρ m' ρ' _ hagree
  refine ⟨_, Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v66_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
